-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2048x2048 : Shape := ⟨2, ![2048, 2048]⟩
abbrev S2048 : Shape := ⟨1, ![2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2x4096x2048 .f32) (main_arg1 : FVec F S2048x2048 .f32) (main_arg2 : FVec F S2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S2x4096x2048 : Shape := ⟨3, ![2, 4096, 2048]⟩
abbrev S2048x2048 : Shape := ⟨2, ![2048, 2048]⟩
abbrev S2048 : Shape := ⟨1, ![2048]⟩
abbrev S_ : Shape := ⟨0, ![]⟩
abbrev S1x1 : Shape := ⟨2, ![1, 1]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 27
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .bf16⟩
  | .hbm, ⟨22, _⟩ => ⟨S1x1, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S2x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bitsLt_bf16_f32 : FTy.bits .bf16 < FTy.bits .f32
  shapeCasts_S_S1x1 : S_.ShapeCasts S1x1
  shapeCasts_S2048_S1x2048 : S2048.ShapeCasts S1x2048
  shapeCasts_S2x4096x2048_S8192x2048 : S2x4096x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2048 : S1x1.Broadcasts S512x2048
  shapeCasts_S8192x2048_S2x4096x2048 : S8192x2048.ShapeCasts S2x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v11) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2048, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2048x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  reducesTo_S2048x2048_S_d0_1 : S2048x2048.ReducesTo [0, 1] S_
  bcast_S_S2048x2048 : S_.BroadcastsInDim S2048x2048 (![] : Fin 0 → Fin S2048x2048.rank)
  bcast_S_S2x4096x2048 : S_.BroadcastsInDim S2x4096x2048 (![] : Fin 0 → Fin S2x4096x2048.rank)
  dot_S2x4096x2048_S2048x2048_S2x4096x2048_2_1_01_0_n_n_wf : DotDims.WF S2x4096x2048 S2048x2048 S2x4096x2048 [2] [1] [0, 1] [0] [] []

variable [Facts₀]

def dot_S2x4096x2048_S2048x2048_S2x4096x2048_2_1_01_0_n_n : DotDims S2x4096x2048 S2048x2048 S2x4096x2048 where
  lhsContracting := [2]
  rhsContracting := [1]
  lhsNonContracting := [0, 1]
  rhsNonContracting := [0]
  lhsBatch := []
  rhsBatch := []
  wf := dot_S2x4096x2048_S2048x2048_S2x4096x2048_2_1_01_0_n_n_wf

class Facts : Prop extends Facts₀ where

variable [Facts]
-- ==== Proof.RmsLaw.lean ====
/-
  The mean square of a row plus ε is positive, for every row.

  Write  ms = ss / 2048 + ε  with ss a sum of squares.  A sum of squares is ≥ 0 on the extended reals, its quotient by
  the real 2048 is ≥ 0, and ε (the single-precision 1e-6) is a positive real: so ms ≥ ε > 0, whether ss is finite or +∞.
-/
import Idealize.ShloMosaic.PureOps.Ideal

noncomputable section

namespace Cert.RmsLaw

open Idealize.ShloMosaic

/-- The pattern of 2048.0 denotes the real 2048. -/
theorem ofBits_2048 : Ideal.ofBits .f32 0x45000000#32 = ((2048 : ℝ) : EReal) := by
  simp [Ideal.ofBits, Ideal.ieee, -EReal.coe_mul]; norm_num

/-- The pattern of the single-precision 1e-6 denotes a positive real. -/
theorem eps_pos : (0 : EReal) < Ideal.ofBits .f32 0x358637BD#32 := by
  simp [Ideal.ofBits, Ideal.ieee, -EReal.coe_mul]

/-- The mean square plus ε of any row is positive. -/
theorem ms_pos {ss : EReal} (h : 0 ≤ ss) :
    0 < Ideal.div ss (Ideal.ofBits .f32 0x45000000#32) + Ideal.ofBits .f32 0x358637BD#32 := by
  rw [ofBits_2048, Ideal.div_coe (by norm_num : (2048 : ℝ) ≠ 0)]
  have h1 : (0 : EReal) ≤ ss * ((1 / 2048 : ℝ) : EReal) :=
    mul_nonneg h (by exact_mod_cast (by norm_num : (0 : ℝ) ≤ 1 / 2048))
  exact lt_of_lt_of_le eps_pos (le_add_of_nonneg_left h1)

end Cert.RmsLaw

end
-- ==== Proof.LibRsqrt.lean ====
/-
  Two facts about extended reals that let "multiply by the reciprocal square root" meet "divide by the square root":
  a square is nonnegative (an infinity squared is +∞), and for a POSITIVE argument a — finite or +∞ —
      y / √a = y · rsqrt a        (a = +∞: y / +∞ = y · 0;  0 < a < +∞: √a is a nonzero real and rsqrt a its inverse).
-/
import Idealize.ShloMosaic.PureOps.Ideal

noncomputable section

namespace Cert.LibRsqrt

open Idealize.ShloMosaic

/-- A square is nonnegative on the extended reals. -/
theorem mul_self_nonneg (x : EReal) : 0 ≤ x * x := by
  induction x using EReal.rec with
  | bot => simp
  | top => simp
  | coe r => exact_mod_cast _root_.mul_self_nonneg r

/-- Dividing by the square root of a positive extended real is multiplying by its reciprocal square root. -/
theorem div_sqrt_eq_mul_rsqrt (y : EReal) {a : EReal} (ha : 0 < a) :
    Ideal.div y (Ideal.sqrt a) = y * Ideal.rsqrt a := by
  induction a using EReal.rec with
  | bot => exact absurd ha (by simp)
  | top => simp [Ideal.div]
  | coe r =>
    have hr : 0 < r := by exact_mod_cast ha
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div, if_neg (by exact_mod_cast hs), EReal.coe_inv]

end Cert.LibRsqrt

end
-- ==== Proof.Spec.lean ====
/-
  The function both programs compute, entry by entry, on the extended reals.

  X is the activation array [2, 4096, 2048], g the gain vector [2048], Q a weight matrix [2048, 2048] (in both programs
  the ternary quantisation of the master weights, which is never opened here) and γ a scalar (the mean absolute weight).
  For the row x = X(b, s, ·):
      ms(x) = (Σ_k x_k²) / 2048 + ε,
      result(b, s, o) = ( Σ_k ((x_k · rsqrt(ms x)) · g_k) · Q(o, k) ) · γ.
-/
import Idealize.ShloMosaic.PureOps.Ideal
import Idealize.ShloMosaic.Lib.ValueIdx
import proofs.«103278_j34291018892051_2_alg».proof.Proof.RmsLaw
import proofs.«103278_j34291018892051_2_alg».proof.Proof.LibRsqrt

noncomputable section

namespace Cert.Spec

open Idealize.ShloMosaic Idealize.ShloMosaic.ValueIdx

/-- The mean square of a row, plus ε. -/
def ms (row : Fin 2048 → EReal) : EReal :=
  Ideal.div (∑ k : Fin 2048, row k * row k) (Ideal.ofBits .f32 0x45000000#32) + Ideal.ofBits .f32 0x358637BD#32

/-- One entry of the result: the normalised, gained row against one weight row, scaled by γ. -/
def entry (row g w : Fin 2048 → EReal) (γ : EReal) : EReal :=
  (∑ k : Fin 2048, ((row k * Ideal.rsqrt (ms row)) * g k) * w k) * γ

/-- The result at (b, s, o). -/
def entryAt (X : (⟨3, ![2, 4096, 2048]⟩ : Shape).Idx → EReal) (g : (⟨1, ![2048]⟩ : Shape).Idx → EReal)
    (Q : (⟨2, ![2048, 2048]⟩ : Shape).Idx → EReal) (γ : EReal) (b : Fin 2) (s : Fin 4096) (o : Fin 2048) : EReal :=
  entry (fun k => X (ix3 b s k)) (fun k => g (ix1 k)) (fun k => Q (ix2 o k)) γ

/-- The whole result array. -/
def result (X : (⟨3, ![2, 4096, 2048]⟩ : Shape).Idx → EReal) (g : (⟨1, ![2048]⟩ : Shape).Idx → EReal)
    (Q : (⟨2, ![2048, 2048]⟩ : Shape).Idx → EReal) (γ : EReal) : (⟨3, ![2, 4096, 2048]⟩ : Shape).Idx → EReal :=
  fun i => entryAt X g Q γ (i 0) (i 1) (i 2)

theorem result_apply (X : (⟨3, ![2, 4096, 2048]⟩ : Shape).Idx → EReal) (g : (⟨1, ![2048]⟩ : Shape).Idx → EReal)
    (Q : (⟨2, ![2048, 2048]⟩ : Shape).Idx → EReal) (γ : EReal) (b : Fin 2) (s : Fin 4096) (o : Fin 2048) :
    result X g Q γ (ix3 b s o) = entryAt X g Q γ b s o := rfl

/-- ms is positive for every row: a sum of squares is nonnegative and ε is positive. -/
theorem ms_pos (row : Fin 2048 → EReal) : 0 < ms row :=
  RmsLaw.ms_pos (Finset.sum_nonneg fun k _ => LibRsqrt.mul_self_nonneg (row k))

/-- Dividing a row entry by √ms is multiplying it by rsqrt ms. -/
theorem div_sqrt_ms (y : EReal) (row : Fin 2048 → EReal) :
    Ideal.div y (Ideal.sqrt (ms row)) = y * Ideal.rsqrt (ms row) :=
  LibRsqrt.div_sqrt_eq_mul_rsqrt y (ms_pos row)

end Cert.Spec

end
-- ==== Proof.RefIsSpec.lean ====
/-
  The reference computes the specification.

  Read one operation at a time, the reference's result at (b, s, o) is
      ( Σ_k ((X(b,s,k) / √ms) · g_k) · Q(o,k) ) · γ,     ms = (0 + Σ_k X(b,s,k)²) / 2048 + ε,
  with Q and γ its own quantised weights and mean absolute weight.  The leading zero of the sum drops, and since
  ms > 0 the quotient by √ms is the product with rsqrt ms: entry by entry this is the specification.
-/
import proofs.«103278_j34291018892051_2_alg».proof.Proof.Gen.ReferenceIdeal.Read
import proofs.«103278_j34291018892051_2_alg».proof.Proof.Spec

noncomputable section

namespace Cert.RefIsSpec

open Cert.ReferenceIdeal Cert.ReferenceIdeal.Gen Cert.ReferenceIdeal.Read
open Idealize.ShloMosaic Idealize.ShloMosaic.ValueIdx

/-- The left operand of the contraction at (b, s, o), term k, is read at (b, s, k). -/
theorem lidx_eq (b : Fin 2) (s : Fin 4096) (o k : Fin 2048) : lidx_main_v21 (ix3 b s o) k = ix3 b s k :=
  funext fun a => Fin.ext (by match a with | ⟨0, _⟩ => rfl | ⟨1, _⟩ => rfl | ⟨2, _⟩ => rfl)

/-- The right operand is read at (o, k). -/
theorem ridx_eq (b : Fin 2) (s : Fin 4096) (o k : Fin 2048) : ridx_main_v21 (ix3 b s o) k = ix2 o k :=
  funext fun a => Fin.ext (by match a with | ⟨0, _⟩ => rfl | ⟨1, _⟩ => rfl)

/-- The row sum behind entry (b, s, k) runs over (b, s, k'). -/
theorem sumidx_eq (b : Fin 2) (s : Fin 4096) (k k' : Fin 2048) :
    idx_main_v1 (idx_main_v2 (idx_main_v8 (ix3 b s k))) k' = ix3 b s k' :=
  funext fun a => Fin.ext (by match a with | ⟨0, _⟩ => rfl | ⟨1, _⟩ => rfl | ⟨2, _⟩ => rfl)

/-- The gain at (b, s, k) is g_k. -/
theorem gainidx_eq (b : Fin 2) (s : Fin 4096) (k : Fin 2048) :
    idx_main_v10 (idx_main_v11 (ix3 b s k)) = ix1 k :=
  funext fun a => Fin.ext (by match a with | ⟨0, _⟩ => rfl)

/-- The reference's normalised, gained activation at (b, s, k). -/
theorem act_apply (X : (⟨S2x4096x2048, .f32⟩ : BufTy).Contents (Elt Ideal)) (g : (⟨S2048, .f32⟩ : BufTy).Contents (Elt Ideal))
    (b : Fin 2) (s : Fin 4096) (k : Fin 2048) :
    val_main_v12 (F := Ideal) X g (ix3 b s k)
      = (X (ix3 b s k) * Ideal.rsqrt (Spec.ms fun k' => X (ix3 b s k'))) * g (ix1 k) := by
  rw [val_main_v12_apply, val_main_v9_apply, val_main_v8_apply, val_main_v7_apply, val_main_v6_apply, val_main_v4_apply,
    val_main_v2_apply, val_main_v1_apply, val_main_v3_apply, val_main_v5_apply, val_main_cst_0_apply, val_main_cst_1_apply,
    val_main_cst_apply, val_main_v11_apply, val_main_v10_apply, gainidx_eq]
  simp only [val_main_v0_apply, sumidx_eq, Ideal.mulf_def, Ideal.addf_def, Ideal.hostDivf_def, Ideal.hostUnary_sqrt_def,
    Ideal.ofBits_def, Ideal.ofBits_zero_f32, zero_add]
  rw [← Spec.div_sqrt_ms]
  rfl

/-- The reference's result is the specification at its own quantised weights and mean absolute weight. -/
theorem ref_eq (X : (⟨S2x4096x2048, .f32⟩ : BufTy).Contents (Elt Ideal)) (W : (⟨S2048x2048, .f32⟩ : BufTy).Contents (Elt Ideal))
    (g : (⟨S2048, .f32⟩ : BufTy).Contents (Elt Ideal)) :
    val_main_v23 (F := Ideal) X W g = Spec.result X g (val_main_v20 (F := Ideal) W) (val_main_v15 (F := Ideal) W ix0) := by
  funext i
  obtain ⟨b, s, o, rfl⟩ : ∃ (b : Fin 2) (s : Fin 4096) (o : Fin 2048), i = ix3 b s o := ⟨i 0, i 1, i 2, eq_ix3 i⟩
  rw [val_main_v23_apply, val_main_v21_apply, val_main_v22_apply, Spec.result_apply]
  unfold Spec.entryAt Spec.entry
  rw [Ideal.mulf_def]
  refine congrArg₂ (· * ·) (Finset.sum_congr rfl fun k _ => ?_) rfl
  rw [lidx_eq, ridx_eq, act_apply]

end Cert.RefIsSpec

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibBroadcast2.lean ====
/-
  Two rank-2 broadcasts read at an entry: a column [a, 1] spread over b lanes (what a row reduction kept with its unit
  axis becomes when it is spread back over the row), and a one-entry array [1, 1] spread over [a, b].
-/
import Idealize.ShloMosaic.Lib.Pipeline.Value
import Idealize.ShloMosaic.Lib.ValueIdx

noncomputable section

namespace Cert.LibBroadcast2

open Idealize.ShloMosaic Idealize.ShloMosaic.ValueIdx

/-- A column [a, 1] spread over b lanes reads, at (p, c), the column at (p, 0). -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array spread over [a, b] reads its one entry everywhere. -/
theorem bcast_11_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibBroadcast2

end
-- ==== Proof.Payload.lean ====
/-
  What the kernel body stores, entry by entry.

  The body is handed a block x of 512 activation rows, the gain row, the whole quantised weight matrix and the scalar γ
  (as a [1, 1] array).  Its one store holds, at (p, q),
      ( Σ_k ((x(p,k) · rsqrt(ms x(p,·))) · gain(0,k)) · w(q,k) ) · γ(0,0):
  the row sum of squares is a lane reduction read at p, kept as a column [512, 1] and spread back over the lanes;
  the matrix product contracts the last axis of both operands and starts from zero; the narrowing to half precision
  before the product is the identity on extended reals.
-/
import proofs.«103278_j34291018892051_2_alg».proof.Proof.Gen.KernelIdeal.Skeleton
import proofs.«103278_j34291018892051_2_alg».proof.Proof.Spec
import proofs.«103278_j34291018892051_2_alg».proof.Proof.LibIdx
import proofs.«103278_j34291018892051_2_alg».proof.Proof.LibContract1
import proofs.«103278_j34291018892051_2_alg».proof.Proof.LibBroadcast2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.KernelIdeal.Facts₀
open Idealize.ShloMosaic Idealize.ShloMosaic.ValueIdx

/-- The left operand's row coordinate is the output's row. -/
theorem lhs_row (j : S512x2048.Idx) (c : dot_S512x2048_S2048x2048_S512x2048_1_1_0_0_n_n.contr.Idx) :
    (dot_S512x2048_S2048x2048_S512x2048_1_1_0_0_n_n.lhsIdx j c 0).val = (j 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl

/-- The right operand's row coordinate is the output's column. -/
theorem rhs_row (j : S512x2048.Idx) (c : dot_S512x2048_S2048x2048_S512x2048_1_1_0_0_n_n.contr.Idx) :
    (dot_S512x2048_S2048x2048_S512x2048_1_1_0_0_n_n.rhsIdx j c 0).val = (j 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl

/-- The product's left operand at output (p, q), term k, is read at (p, k). -/
theorem lhs_at (p : Fin 512) (q k : Fin 2048) :
    dot_S512x2048_S2048x2048_S512x2048_1_1_0_0_n_n.lhsIdx (ix2 p q)
      ((contrEquiv1 dot_S512x2048_S2048x2048_S512x2048_1_1_0_0_n_n 2048 rfl rfl).symm k) = ix2 p k := by
  have hk := contrEquiv1_symm_val dot_S512x2048_S2048x2048_S512x2048_1_1_0_0_n_n 2048 rfl rfl k
  refine funext fun a => Fin.ext ?_
  match a with
  | ⟨0, _⟩ => exact lhs_row _ _
  | ⟨1, _⟩ => exact (dot_S512x2048_S2048x2048_S512x2048_1_1_0_0_n_n.lhsIdx_val_of_single rfl _ _).trans hk

/-- The right operand is read at (q, k): the weight row named by the output's column. -/
theorem rhs_at (p : Fin 512) (q k : Fin 2048) :
    dot_S512x2048_S2048x2048_S512x2048_1_1_0_0_n_n.rhsIdx (ix2 p q)
      ((contrEquiv1 dot_S512x2048_S2048x2048_S512x2048_1_1_0_0_n_n 2048 rfl rfl).symm k) = ix2 q k := by
  have hk := contrEquiv1_symm_val dot_S512x2048_S2048x2048_S512x2048_1_1_0_0_n_n 2048 rfl rfl k
  refine funext fun a => Fin.ext ?_
  match a with
  | ⟨0, _⟩ => exact rhs_row _ _
  | ⟨1, _⟩ => exact (dot_S512x2048_S2048x2048_S512x2048_1_1_0_0_n_n.rhsIdx_val_of_single rfl _ _).trans hk

/-- The row scale: rsqrt of the row's mean square plus ε, kept as a column. -/
theorem rowscale_apply (x0 : FVec Ideal S512x2048 .f32) (p : Fin 512) (u : Fin 1) :
    (rsqrt (addf (divf (shapeCast S512x1 (multiReduction .add [1] S512 (mulf x0 x0) 0x00000000#32 Facts₀.reduces_S512x2048_S512 (.inl rfl) rfl)
        Facts₀.shapeCasts_S512_S512x1) (broadcast S512x1 (Scalar.ofBits (F := Ideal) .f32 0x45000000#32)))
        (broadcast S512x1 (Scalar.ofBits (F := Ideal) .f32 0x358637BD#32))) : FVec Ideal S512x1 .f32) (ix2 p u)
      = Ideal.rsqrt (Spec.ms fun k => x0 (ix2 p k)) := by
  show Ideal.rsqrt (Ideal.div ((shapeCast S512x1 (multiReduction .add [1] S512 (mulf x0 x0) 0x00000000#32 Facts₀.reduces_S512x2048_S512 (.inl rfl) rfl)
        Facts₀.shapeCasts_S512_S512x1) (ix2 p u)) (Ideal.ofBits .f32 0x45000000#32) + Ideal.ofBits .f32 0x358637BD#32) = _
  rw [LibIdx.shapeCast_a_a1_apply]
  unfold Spec.ms
  refine congrArg Ideal.rsqrt (congrArg₂ (· + ·) (congrArg₂ Ideal.div ?_ rfl) rfl)
  refine (Ideal.multiReduction_add_single (mulf x0 x0) 0x00000000#32 Facts₀.reduces_S512x2048_S512 (.inl rfl) rfl (ix1 p)).trans ?_
  refine Finset.sum_congr rfl fun k _ => ?_
  have e : Facts₀.reduces_S512x2048_S512.lift (ix1 p) k = ix2 p k :=
    funext fun a => Fin.ext (by match a with | ⟨0, _⟩ => rfl | ⟨1, _⟩ => rfl)
  rw [mulf_apply, e]
  rfl

/-- The body's stored value at (p, q). -/
theorem pay_apply (x0 : Vec Ideal S512x2048 .f32) (x1 : Vec Ideal S1x2048 .f32) (x2 : Vec Ideal S2048x2048 .bf16)
    (x3 : Vec Ideal S1x1 .f32) (p : Fin 512) (q : Fin 2048) :
    k0_pay1 (F := Ideal) x0 x1 x2 x3 (ix2 p q)
      = Spec.entry (fun k => x0 (ix2 p k)) (fun k => x1 (ix2 (0 : Fin 1) k)) (fun k => x2 (ix2 q k))
          (x3 (ix2 (0 : Fin 1) (0 : Fin 1))) := by
  unfold k0_pay1
  simp only [shapeCast_self]
  rw [mulf_apply, LibBroadcast2.bcast_11_apply,
    LibContract1.matmul_zero_single dot_S512x2048_S2048x2048_S512x2048_1_1_0_0_n_n 2048 rfl rfl _ _ (ix2 p q)
      (fun k => ix2 p k) (fun k => ix2 q k) (lhs_at p q) (rhs_at p q)]
  unfold Spec.entry
  refine congrArg₂ (· * ·) (Finset.sum_congr rfl fun k _ => ?_) rfl
  refine congrArg₂ (· * ·) ?_ rfl
  rw [truncf_apply, mulf_apply, mulf_apply, LibBroadcast2.bcast_col_apply, broadcastTo_1b_ab_apply, rowscale_apply]

end Cert.KernelIdeal.Payload

end
-- ==== Proof.Blocks.lean ====
/-
  From the blocks to the whole output array.

  Grid point t handles rows 512·t … 512·t + 511 of the flattened activations: its activation block and its output block
  sit at the same row offset, while the gain row, the weight matrix and γ are the same whole arrays at every point.  So
  what point t writes back is block t of ONE function of the staged arrays,
      flat(r, o) = ( Σ_k ((xf(r,k) · rsqrt(ms xf(r,·))) · gain(0,k)) · w(o,k) ) · γ(0,0),
  and the sixteen row blocks cover the 8192 rows (row r lies in block r / 512): the output array ends holding flat.
-/
import proofs.«103278_j34291018892051_2_alg».proof.Proof.Gen.KernelIdeal.Frame
import proofs.«103278_j34291018892051_2_alg».proof.Proof.Payload
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zeros2 : (![0, 0] : Fin 2 → Nat) = fun _ => 0 := funext fun a => by fin_cases a <;> rfl

/-- Entry (r, o) of the flattened output, from the staged arrays. -/
def rowEntry (xf : S8192x2048.Idx → EReal) (gn : S1x2048.Idx → EReal) (wv : S2048x2048.Idx → EReal) (gm : S1x1.Idx → EReal)
    (r : Fin 8192) (o : Fin 2048) : EReal :=
  Spec.entry (fun k => xf (ix2 r k)) (fun k => gn (ix2 (0 : Fin 1) k)) (fun k => wv (ix2 o k)) (gm (ix2 (0 : Fin 1) (0 : Fin 1)))

/-- The flattened output as one function of the staged arrays. -/
def flat (xf : S8192x2048.Idx → EReal) (gn : S1x2048.Idx → EReal) (wv : S2048x2048.Idx → EReal) (gm : S1x1.Idx → EReal) :
    S8192x2048.Idx → EReal :=
  fun j => rowEntry xf gn wv gm (j 0) (j 1)

theorem flat_apply (xf : S8192x2048.Idx → EReal) (gn : S1x2048.Idx → EReal) (wv : S2048x2048.Idx → EReal) (gm : S1x1.Idx → EReal)
    (r : Fin 8192) (o : Fin 2048) : flat xf gn wv gm (ix2 r o) = rowEntry xf gn wv gm r o := rfl

/-- The printed index maps over the grid: the activation block moves with the output block along the rows, every other
    block index is zero, and there are sixteen row blocks. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 15 ∧ win0_4.index t (1 : Fin 2) = 0 :=
  (by decide +kernel : ∀ t : Fin grid0.N, _)

/-- Every row block is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-- What point t writes back is block t of flat. -/
theorem flushed_eq (c : Dev nD) (t : Fin cfg0.N) :
    (dats m 0 c).flushed 4 t = ((cfg0.win 4).blk t).view.read (Elt Ideal)
      (flat (V m c main_v11) (V m c main_v10) (V m c main_v8) (V m c main_v9)) := by
  show (cfg0.win 4).cut (grid0.coords t) ((dats m 0 c).after 4 t) = _
  rw [after0_4]
  unfold out0_4
  rw [View.canon_unit_zero zeros2]
  simp only [View.ld_unit_zero (S := S512x2048) zeros2, View.ld_unit_zero (S := S1x2048) zeros2,
    View.ld_unit_zero (S := S2048x2048) zeros2, View.ld_unit_zero (S := S1x1) zeros2]
  obtain ⟨e0, e1, e2, e3, e4, e5, e6, e7, e8, e9⟩ := idx_facts t
  funext y
  obtain ⟨p, q, rfl⟩ : ∃ (p : Fin 512) (q : Fin 2048), y = ix2 p q := ⟨y 0, y 1, eq_ix2 y⟩
  show k0_pay1 (iblk m c 0 t) (iblk m c 1 t) (iblk m c 2 t) (iblk m c 3 t) (ix2 p q)
    = flat (V m c main_v11) (V m c main_v10) (V m c main_v8) (V m c main_v9) (((cfg0.win 4).blk t).view.emb (ix2 p q))
  have hp : p.val < 512 := p.isLt
  have hq : q.val < 2048 := q.isLt
  have hj : ((cfg0.win 4).blk t).view.emb (ix2 p q)
      = ix2 (⟨win0_4.index t (0 : Fin 2) * 512 + 1 * p.val, by omega⟩ : Fin 8192) q :=
    funext fun a => Fin.ext (by
      match a with
      | ⟨0, _⟩ => rfl
      | ⟨1, _⟩ => show win0_4.index t (1 : Fin 2) * 2048 + 1 * q.val = q.val; omega)
  rw [hj, flat_apply, Payload.pay_apply]
  unfold rowEntry
  have h0 : (fun k : Fin 2048 => iblk m c 0 t (ix2 p k))
      = fun k : Fin 2048 => V m c main_v11 (ix2 (⟨win0_4.index t (0 : Fin 2) * 512 + 1 * p.val, by omega⟩ : Fin 8192) k) :=
    funext fun k => by
      show V m c main_v11 (((cfg0.win 0).blk t).view.emb (ix2 p k)) = _
      refine congrArg _ (funext fun a => Fin.ext ?_)
      have hk : k.val < 2048 := k.isLt
      match a with
      | ⟨0, _⟩ => show win0_0.index t (0 : Fin 2) * 512 + 1 * p.val = win0_4.index t (0 : Fin 2) * 512 + 1 * p.val; omega
      | ⟨1, _⟩ => show win0_0.index t (1 : Fin 2) * 2048 + 1 * k.val = k.val; omega
  have h1 : (fun k : Fin 2048 => iblk m c 1 t (ix2 (0 : Fin 1) k)) = fun k : Fin 2048 => V m c main_v10 (ix2 (0 : Fin 1) k) :=
    funext fun k => by
      show V m c main_v10 (((cfg0.win 1).blk t).view.emb (ix2 (0 : Fin 1) k)) = _
      refine congrArg _ (funext fun a => Fin.ext ?_)
      match a with
      | ⟨0, _⟩ => show win0_1.index t (0 : Fin 2) * 1 + 1 * 0 = 0; omega
      | ⟨1, _⟩ => show win0_1.index t (1 : Fin 2) * 2048 + 1 * k.val = k.val; omega
  have h2 : (fun k : Fin 2048 => iblk m c 2 t (ix2 q k)) = fun k : Fin 2048 => V m c main_v8 (ix2 q k) :=
    funext fun k => by
      show V m c main_v8 (((cfg0.win 2).blk t).view.emb (ix2 q k)) = _
      refine congrArg _ (funext fun a => Fin.ext ?_)
      match a with
      | ⟨0, _⟩ => show win0_2.index t (0 : Fin 2) * 2048 + 1 * q.val = q.val; omega
      | ⟨1, _⟩ => show win0_2.index t (1 : Fin 2) * 2048 + 1 * k.val = k.val; omega
  have h3 : iblk m c 3 t (ix2 (0 : Fin 1) (0 : Fin 1)) = V m c main_v9 (ix2 (0 : Fin 1) (0 : Fin 1)) := by
    show V m c main_v9 (((cfg0.win 3).blk t).view.emb (ix2 (0 : Fin 1) (0 : Fin 1))) = _
    refine congrArg _ (funext fun a => Fin.ext ?_)
    match a with
    | ⟨0, _⟩ => show win0_3.index t (0 : Fin 2) * 1 + 1 * 0 = 0; omega
    | ⟨1, _⟩ => show win0_3.index t (1 : Fin 2) * 1 + 1 * 0 = 0; omega
  exact congr (congr (congr (congrArg Spec.entry h0) h1) h2) h3

/-- An index of the output array is in point t's block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v12).slice (win0_4.rect t)).set ↔ _
  rw [View.set_slice_whole, Rect.mem_set_unit]
  exact Iff.rfl

/-- Every index of the output array lies in some point's block: row r in block r / 512. -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-- The output array after the run is flat of the staged arrays. -/
theorem final (c : Dev nD) : (dats m 0 c).arrAt 4 cfg0.N
    = flat (V m c main_v11) (V m c main_v10) (V m c main_v8) (V m c main_v9) :=
  (dats m 0 c).arrAt_eq_of_cover 4 _ (fun t _ => flushed_eq m c t) cover

end Cert.KernelIdeal.Blocks

end
-- ==== Proof.HostPrefix.lean ====
/-
  What the region finds in the four arrays it stages, as functions of the three arguments.

  Before the region the host flattens the activations [2, 4096, 2048] to [8192, 2048], views the gain [2048] as a row
  [1, 2048], computes from the master weights W the scalar  γ = (0 + Σ|W|) / 2²²  (viewed as [1, 1]) and the quantised
  weights  clip(round(W / (γ + ε')), -1, 1)  (narrowed to half precision, the identity on extended reals).  The last two
  are kept as two named terms, never opened: the reference computes the same two terms.
-/
import proofs.«103278_j34291018892051_2_alg».proof.Proof.Gen.KernelIdeal.Frame
import Idealize.ShloMosaic.Lib.StableHlo.Run
import Idealize.ShloMosaic.PureOps.Ideal

noncomputable section

namespace Cert.KernelIdeal.HostPrefix

open Cert.KernelIdeal Cert.KernelIdeal.Gen
open Idealize.ShloMosaic Idealize.ShloMosaic.TcCoe Idealize.SL.Sem Idealize.ShloMosaic.StableHlo

/-- The mean absolute weight γ, as the host computes it. -/
def gam (W : FVec Ideal S2048x2048 .f32) : FVec Ideal S_ .f32 :=
  Host.divf (F := Ideal) (Host.reduceAdd (F := Ideal) (Host.absf (F := Ideal) W) (constant (F := Ideal) S_ .f32 0x00000000#32)
    Facts₀.reducesTo_S2048x2048_S_d0_1 Facts₀.h_S_) (constant (F := Ideal) S_ .f32 0x4A800000#32)

/-- The ternary quantisation of the weights, as the host computes it. -/
def wq (W : FVec Ideal S2048x2048 .f32) : FVec Ideal S2048x2048 .f32 :=
  minimumf (F := Ideal) (broadcastInDim S2048x2048 ![] Facts₀.bcast_S_S2048x2048 (id (constant (F := Ideal) S_ .f32 0x3F800000#32)))
    (maximumf (F := Ideal) (broadcastInDim S2048x2048 ![] Facts₀.bcast_S_S2048x2048 (id (constant (F := Ideal) S_ .f32 0xBF800000#32)))
      (Host.roundeven (F := Ideal) (Host.divf (F := Ideal) W (broadcastInDim S2048x2048 ![] Facts₀.bcast_S_S2048x2048
        (addf (F := Ideal) (gam W) (constant (F := Ideal) S_ .f32 0x322BCC77#32))))))

variable (m : (ℓ : Loc nD τ sig) → Buf (Elt Ideal) ℓ)

/-- The flattened activations. -/
theorem found_x (c : Dev nD) : (V m c main_v11 : S8192x2048.Idx → EReal)
    = shapeCast S8192x2048 (m ((c : Thread nD τ).loc main_arg0)) Facts₀.shapeCasts_S2x4096x2048_S8192x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The gain as a row. -/
theorem found_gain (c : Dev nD) : (V m c main_v10 : S1x2048.Idx → EReal)
    = shapeCast S1x2048 (m ((c : Thread nD τ).loc main_arg2)) Facts₀.shapeCasts_S2048_S1x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- γ as a [1, 1] array. -/
theorem found_gam (c : Dev nD) : (V m c main_v9 : S1x1.Idx → EReal)
    = shapeCast S1x1 (gam (m ((c : Thread nD τ).loc main_arg1))) Facts₀.shapeCasts_S_S1x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The quantised weights. -/
theorem found_wq (c : Dev nD) : (V m c main_v8 : S2048x2048.Idx → EReal)
    = wq (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.HostPrefix

end
-- ==== Proof.Tail.lean ====
/-
  The kernel program's result as a function of its three arguments.

  After the region the host views the output [8192, 2048] as [2, 4096, 2048]: entry (b, s, o) is entry (4096·b + s, o)
  of the flattened output, and row 4096·b + s of the flattened activations is the row X(b, s, ·).  With the arrays the
  region was handed (flattened activations, the gain as a row, the quantised weights, γ as a [1, 1] array) this makes the
  result the specification at the kernel's own quantised weights and γ.
-/
import proofs.«103278_j34291018892051_2_alg».proof.Proof.Gen.KernelIdeal.Frame
import proofs.«103278_j34291018892051_2_alg».proof.Proof.Blocks
import proofs.«103278_j34291018892051_2_alg».proof.Proof.HostPrefix
import Idealize.ShloMosaic.Lib.Pipeline.Value
import Idealize.ShloMosaic.Lib.ValueLayout
import Idealize.ShloMosaic.Lib.StableHlo.Run

noncomputable section

namespace Cert.KernelIdeal.Tail

open Cert.KernelIdeal Cert.KernelIdeal.Gen
open Idealize.ShloMosaic Idealize.ShloMosaic.TcCoe Idealize.SL.Sem Idealize.ShloMosaic.ValueIdx Idealize.ShloMosaic.StableHlo

/-- The result array in terms of the arguments: the flattened output, from the arrays the host prepares, viewed as
    [2, 4096, 2048]. -/
def kernelResult (X : S2x4096x2048.Idx → EReal) (W : FVec Ideal S2048x2048 .f32) (g : S2048.Idx → EReal) :
    S2x4096x2048.Idx → EReal :=
  shapeCast S2x4096x2048
    (Blocks.flat (shapeCast S8192x2048 X Facts₀.shapeCasts_S2x4096x2048_S8192x2048) (shapeCast S1x2048 g Facts₀.shapeCasts_S2048_S1x2048)
      (HostPrefix.wq W) (shapeCast S1x1 (HostPrefix.gam W) Facts₀.shapeCasts_S_S1x1))
    Facts₀.shapeCasts_S8192x2048_S2x4096x2048

/-- Entry by entry it is the specification. -/
theorem kernelResult_eq (X : S2x4096x2048.Idx → EReal) (W : FVec Ideal S2048x2048 .f32) (g : S2048.Idx → EReal) :
    kernelResult X W g = Spec.result X g (HostPrefix.wq W) (HostPrefix.gam W ix0) := by
  funext i
  obtain ⟨b, s, o, rfl⟩ : ∃ (b : Fin 2) (s : Fin 4096) (o : Fin 2048), i = ix3 b s o := ⟨i 0, i 1, i 2, eq_ix3 i⟩
  have hb : b.val < 2 := b.isLt
  have hs : s.val < 4096 := s.isLt
  rw [Spec.result_apply]
  unfold kernelResult
  rw [shapeCast_apply _ _ (ix3 b s o) (ix2 (⟨b.val * 4096 + s.val, by omega⟩ : Fin 8192) o)
    (by rw [Shape.rowMajor_val_two, Shape.rowMajor_val_three]; rfl), Blocks.flat_apply]
  unfold Blocks.rowEntry Spec.entryAt
  have h0 : (fun k : Fin 2048 => shapeCast S8192x2048 X Facts₀.shapeCasts_S2x4096x2048_S8192x2048
        (ix2 (⟨b.val * 4096 + s.val, by omega⟩ : Fin 8192) k)) = fun k : Fin 2048 => X (ix3 b s k) :=
    funext fun k => shapeCast_apply X _ _ (ix3 b s k) (by rw [Shape.rowMajor_val_two, Shape.rowMajor_val_three]; rfl)
  have h1 : (fun k : Fin 2048 => shapeCast S1x2048 g Facts₀.shapeCasts_S2048_S1x2048 (ix2 (0 : Fin 1) k))
      = fun k : Fin 2048 => g (ix1 k) :=
    funext fun k => shapeCast_a_1a_apply g _ (0 : Fin 1) k
  have h3 : shapeCast S1x1 (HostPrefix.gam W) Facts₀.shapeCasts_S_S1x1 (ix2 (0 : Fin 1) (0 : Fin 1)) = HostPrefix.gam W ix0 :=
    shapeCast_apply (HostPrefix.gam W) _ _ ix0 (by
      have h1 := (S_.rowMajor ix0).isLt
      have h2 := (S1x1.rowMajor (ix2 (0 : Fin 1) (0 : Fin 1))).isLt
      have e1 : S_.numel = 1 := by decide
      have e2 : S1x1.numel = 1 := by decide
      omega)
  exact congr (congr (congr (congrArg Spec.entry h0) h1) rfl) h3

variable (m : (ℓ : Loc nD τ sig) → Buf (Elt Ideal) ℓ) (ρ : Dev nD → PrngReg)

/-- What the host's last line leaves in the result buffer. -/
theorem tail_eq (c : Dev nD) :
    Pipeline.afterTail₀ cfgs (dats m) 0 (V0 m) [hostOps1] c main_v13
      = kernelResult (m ((c : Thread nD τ).loc main_arg0)) (m ((c : Thread nD τ).loc main_arg1)) (m ((c : Thread nD τ).loc main_arg2)) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = Blocks.flat (V m c main_v11) (V m c main_v10) (V m c main_v8) (V m c main_v9) :=
    (Pipeline.withArrays_arr spec0 launch0.win.arr_inj c _ _ 4).trans (Blocks.final m c)
  rw [hw, HostPrefix.found_x, HostPrefix.found_gain, HostPrefix.found_wq, HostPrefix.found_gam]
  rfl

/-- The kernel program's run with its result named: every weakly fair execution ends with the result buffer at the
    specification (at the kernel's quantised weights and γ) and the arguments unchanged. -/
theorem run : θ_run defs (onTc (τ := τ) (main (F := Ideal))) ⟨m, fun _ => 0, ρ⟩ fun r => ∀ c : Dev nD,
      r.2.mem ((c : Thread nD τ).loc main_v13)
        = Spec.result (m ((c : Thread nD τ).loc main_arg0)) (m ((c : Thread nD τ).loc main_arg2))
            (HostPrefix.wq (m ((c : Thread nD τ).loc main_arg1))) (HostPrefix.gam (m ((c : Thread nD τ).loc main_arg1)) ix0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(((h c).2 main_v13 (Pipeline.mem_restRefs_of main_v13 (by decide) (by decide))).trans (tail_eq m c)).trans
        (kernelResult_eq _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.lean ====
/-
  Equivalence, over the extended reals, of a fused RMS-norm / ternary-weight matrix product kernel with its reference.

  Both programs take activations X [2, 4096, 2048], master weights W [2048, 2048] and a gain g [2048].  Both compute on
  the host, by the same operations, γ = (Σ|W|) / 2²² and the quantised weights Q = clip(round(W / (γ + ε')), -1, 1).
  For the row x = X(b, s, ·) put  ms = (Σ_k x_k²) / 2048 + ε.  The kernel, on blocks of 512 flattened rows, computes
      ( Σ_k ((x_k · rsqrt ms) · g_k) · Q(o, k) ) · γ
  and the reference
      ( Σ_k ((x_k / √ms) · g_k) · Q(o, k) ) · γ.
  Every square is nonnegative on the extended reals and ε > 0, so ms > 0 for EVERY row, and for a positive argument
  dividing by its square root is multiplying by its reciprocal square root (also at +∞, where both sides give x_k · 0):
  the two results are the same function of the arguments, entry by entry, and finiteness of the inputs is never used.

  The pieces: LibRsqrt and RmsLaw (the facts about extended reals), Spec (the common function), RefIsSpec (the reference is it),
  Payload (the kernel body's stored value at an entry), HostPrefix (the arrays the host hands the region), Blocks (the
  sixteen row blocks make up the flattened output), Tail (the host's final reshape, and the kernel program's run with
  its result named).  The three frame claims are the generated frame runs; the idealisation rewrote nothing.
-/
import proofs.«103278_j34291018892051_2_alg».proof.Defs
import proofs.«103278_j34291018892051_2_alg».proof.Proof.Gen.Kernel
import proofs.«103278_j34291018892051_2_alg».proof.Proof.Gen.Kernel.Skeleton
import proofs.«103278_j34291018892051_2_alg».proof.Proof.Gen.Kernel.Launch
import proofs.«103278_j34291018892051_2_alg».proof.Proof.Gen.Kernel.Points
import proofs.«103278_j34291018892051_2_alg».proof.Proof.Gen.Kernel.Frame
import proofs.«103278_j34291018892051_2_alg».proof.Proof.Gen.KernelIdeal
import proofs.«103278_j34291018892051_2_alg».proof.Proof.Gen.KernelIdeal.Skeleton
import proofs.«103278_j34291018892051_2_alg».proof.Proof.Gen.KernelIdeal.Launch
import proofs.«103278_j34291018892051_2_alg».proof.Proof.Gen.KernelIdeal.Points
import proofs.«103278_j34291018892051_2_alg».proof.Proof.Gen.KernelIdeal.Frame
import proofs.«103278_j34291018892051_2_alg».proof.Proof.Gen.ReferenceIdeal
import proofs.«103278_j34291018892051_2_alg».proof.Proof.Gen.Pre_finite_inputs
import proofs.«103278_j34291018892051_2_alg».proof.Proof.Gen.ReferenceIdeal.Run
import proofs.«103278_j34291018892051_2_alg».proof.Proof.Gen.ReferenceIdeal.Read
import proofs.«103278_j34291018892051_2_alg».proof.Proof.RefIsSpec
import proofs.«103278_j34291018892051_2_alg».proof.Proof.Tail
import Idealize.ShloMosaic.Adequacy
import Idealize.ShloMosaic.Init

noncomputable section

namespace Cert.Proof

open Idealize.ShloMosaic Idealize.ShloMosaic.TcCoe Idealize.SL.Sem

/-- The two programs quantise the weights by the same operations. -/
theorem wq_eq (W : FVec Ideal Cert.KernelIdeal.S2048x2048 .f32) :
    Cert.KernelIdeal.HostPrefix.wq W = Cert.ReferenceIdeal.Read.val_main_v20 (F := Ideal) W := rfl

/-- And take the mean absolute weight by the same operations. -/
theorem gam_eq (W : FVec Ideal Cert.KernelIdeal.S2048x2048 .f32) :
    Cert.KernelIdeal.HostPrefix.gam W = Cert.ReferenceIdeal.Read.val_main_v15 (F := Ideal) W := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealised programs end with the specification of the arguments in their result buffers. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.RefIsSpec.ref_eq, (hagree c).1, (hagree c).2.1, (hagree c).2.2,
    ← wq_eq, ← gam_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
